-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x4 : Shape := ⟨2, ![2097152, 4]⟩
abbrev S80x128 : Shape := ⟨2, ![80, 128]⟩
abbrev S_ : Shape := ⟨0, ![]⟩

class Facts : Prop where
  bcast_S_S2097152x4 : S_.BroadcastsInDim S2097152x4 (![] : Fin 0 → Fin S2097152x4.rank)
  reducesTo_S2097152x4_S_d0_1 : S2097152x4.ReducesTo [0, 1] S_
  h_S_ : 0 < S_.numel
  bcast_S_S80x128 : S_.BroadcastsInDim S80x128 (![] : Fin 0 → Fin S80x128.rank)
  reducesTo_S80x128_S_d0_1 : S80x128.ReducesTo [0, 1] S_

variable [Facts]

def fn {F : FTy → Type} [FloatOps F] (main_arg0 : FVec F S2097152x4 .f32) (main_arg1 : FVec F S80x128 .f32) : IVec S_ 1 :=
  let main_v0 : FVec F S2097152x4 .f32 := Host.absf main_arg0
  let main_cst : FVec F S_ .f32 := constant S_ .f32 0x7F800000#32
  let main_v1 : FVec F S2097152x4 .f32 := broadcastInDim S2097152x4 ![] bcast_S_S2097152x4 main_cst
  let main_v2 : IVec S2097152x4 1 := cmpf .olt main_v0 main_v1
  let main_c : IVec S_ 1 := constantI S_ 1 1#1
  let main_v3 : IVec S_ 1 := (fun x v => Host.reduce IntOp.andi x v reducesTo_S2097152x4_S_d0_1 h_S_) main_v2 main_c
  let main_v4 : FVec F S80x128 .f32 := Host.absf main_arg1
  let main_cst_0 : FVec F S_ .f32 := constant S_ .f32 0x7F800000#32
  let main_v5 : FVec F S80x128 .f32 := broadcastInDim S80x128 ![] bcast_S_S80x128 main_cst_0
  let main_v6 : IVec S80x128 1 := cmpf .olt main_v4 main_v5
  let main_c_1 : IVec S_ 1 := constantI S_ 1 1#1
  let main_v7 : IVec S_ 1 := (fun x v => Host.reduce IntOp.andi x v reducesTo_S80x128_S_d0_1 h_S_) main_v6 main_c_1
  let main_v8 : IVec S_ 1 := andi main_v3 main_v7
  main_v8
-- ==== Kernel.lean ====
abbrev S2097152x4 : Shape := ⟨2, ![2097152, 4]⟩
abbrev S80x128 : Shape := ⟨2, ![80, 128]⟩
abbrev S4x2097152 : Shape := ⟨2, ![4, 2097152]⟩
abbrev S128x80 : Shape := ⟨2, ![128, 80]⟩
abbrev S2x2097152 : Shape := ⟨2, ![2, 2097152]⟩
abbrev S4x262144 : Shape := ⟨2, ![4, 262144]⟩
abbrev S2x262144 : Shape := ⟨2, ![2, 262144]⟩
abbrev S32x4 : Shape := ⟨2, ![32, 4]⟩
abbrev S32x32 : Shape := ⟨2, ![32, 32]⟩
abbrev S2x32 : Shape := ⟨2, ![2, 32]⟩
abbrev S32x1 : Shape := ⟨2, ![32, 1]⟩
abbrev S2x1 : Shape := ⟨2, ![2, 1]⟩
abbrev S32x262144 : Shape := ⟨2, ![32, 262144]⟩
abbrev S2097152x2 : Shape := ⟨2, ![2097152, 2]⟩

abbrev nBuf : Space → Nat
  | .hbm => 6
  | .vmem => 5
  | .smem => 0
  | _ => 0

abbrev bufTy : (tb : Table) → Fin (tcTables nBuf tb) → BufTy
  | .hbm, ⟨0, _⟩ => ⟨S2097152x4, .f32⟩
  | .hbm, ⟨1, _⟩ => ⟨S80x128, .f32⟩
  | .hbm, ⟨2, _⟩ => ⟨S4x2097152, .f32⟩
  | .hbm, ⟨3, _⟩ => ⟨S128x80, .f32⟩
  | .hbm, ⟨4, _⟩ => ⟨S2x2097152, .f32⟩
  | .hbm, ⟨5, _⟩ => ⟨S2097152x2, .f32⟩
  | .local _ .vmem, ⟨0, _⟩ => ⟨S4x262144, .f32⟩
  | .local _ .vmem, ⟨1, _⟩ => ⟨S4x262144, .f32⟩
  | .local _ .vmem, ⟨2, _⟩ => ⟨S128x80, .f32⟩
  | .local _ .vmem, ⟨3, _⟩ => ⟨S2x262144, .f32⟩
  | .local _ .vmem, ⟨4, _⟩ => ⟨S2x262144, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x262144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S2097152x4_S4x2097152_1_0 : S2097152x4.Transposes [1, 0] S4x2097152
  transposes_S80x128_S128x80_1_0 : S80x128.Transposes [1, 0] S128x80
  inb_S4x262144_S4x262144_0_0 : ∀ a, (![0, 0] : Fin 2 → Nat) a + S4x262144.size a ≤ S4x262144.size a
  h_S4x262144 : 0 < S4x262144.numel
  shapeCasts_S4x262144_S4x262144 : S4x262144.ShapeCasts S4x262144
  bitsLt_bf16_f32 : FTy.bits .bf16 < FTy.bits .f32
  inb_S128x80_S32x4_0_0 : ∀ a, (![0, 0] : Fin 2 → Nat) a + S32x4.size a ≤ S128x80.size a
  h_S32x4 : 0 < S32x4.numel
  shapeCasts_S32x4_S32x4 : S32x4.ShapeCasts S32x4
  inb_S128x80_S32x32_0_16 : ∀ a, (![0, 16] : Fin 2 → Nat) a + S32x32.size a ≤ S128x80.size a
  h_S32x32 : 0 < S32x32.numel
  shapeCasts_S32x32_S32x32 : S32x32.ShapeCasts S32x32
  inb_S128x80_S2x32_0_48 : ∀ a, (![0, 48] : Fin 2 → Nat) a + S2x32.size a ≤ S128x80.size a
  h_S2x32 : 0 < S2x32.numel
  shapeCasts_S2x32_S2x32 : S2x32.ShapeCasts S2x32
  inb_S128x80_S32x1_0_8 : ∀ a, (![0, 8] : Fin 2 → Nat) a + S32x1.size a ≤ S128x80.size a
  h_S32x1 : 0 < S32x1.numel
  shapeCasts_S32x1_S32x1 : S32x1.ShapeCasts S32x1
  inb_S128x80_S32x1_0_9 : ∀ a, (![0, 9] : Fin 2 → Nat) a + S32x1.size a ≤ S128x80.size a
  inb_S128x80_S2x1_0_10 : ∀ a, (![0, 10] : Fin 2 → Nat) a + S2x1.size a ≤ S128x80.size a
  h_S2x1 : 0 < S2x1.numel
  shapeCasts_S2x1_S2x1 : S2x1.ShapeCasts S2x1
  broadcasts_S32x1_S32x262144 : S32x1.Broadcasts S32x262144
  broadcasts_S2x1_S2x262144 : S2x1.Broadcasts S2x262144
  inb_S2x262144_S2x262144_0_0 : ∀ a, (![0, 0] : Fin 2 → Nat) a + S2x262144.size a ≤ S2x262144.size a
  h_S2x262144 : 0 < S2x262144.numel
  transposes_S2x2097152_S2097152x2_1_0 : S2x2097152.Transposes [1, 0] S2097152x2
  dot_S32x4_S4x262144_S32x262144_1_0_0_1_n_n_wf : DotDims.WF S32x4 S4x262144 S32x262144 [1] [0] [0] [1] [] []
  dot_S32x32_S32x262144_S32x262144_1_0_0_1_n_n_wf : DotDims.WF S32x32 S32x262144 S32x262144 [1] [0] [0] [1] [] []
  dot_S2x32_S32x262144_S2x262144_1_0_0_1_n_n_wf : DotDims.WF S2x32 S32x262144 S2x262144 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x262144.size a ≤ S4x2097152.size a
  hwx0_0 : ∀ i : grid0.Coords, EltTy.bits .f32 = 32 ∨ (Rect.block (s := S4x2097152) S4x262144.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x80.size a ≤ S128x80.size a
  hwx0_1 : ∀ i : grid0.Coords, EltTy.bits .f32 = 32 ∨ (Rect.block (s := S128x80) S128x80.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x262144.size a ≤ S2x2097152.size a
  hwx0_2 : ∀ i : grid0.Coords, EltTy.bits .f32 = 32 ∨ (Rect.block (s := S2x2097152) S2x262144.size (cc0_transform_2 i) (hinb0_2 i)).WholeWords (EltTy.packing .f32)

variable [Facts₀]

def dot_S32x4_S4x262144_S32x262144_1_0_0_1_n_n : DotDims S32x4 S4x262144 S32x262144 where
  lhsContracting := [1]
  rhsContracting := [0]
  lhsNonContracting := [0]
  rhsNonContracting := [1]
  lhsBatch := []
  rhsBatch := []
  wf := dot_S32x4_S4x262144_S32x262144_1_0_0_1_n_n_wf
def dot_S32x32_S32x262144_S32x262144_1_0_0_1_n_n : DotDims S32x32 S32x262144 S32x262144 where
  lhsContracting := [1]
  rhsContracting := [0]
  lhsNonContracting := [0]
  rhsNonContracting := [1]
  lhsBatch := []
  rhsBatch := []
  wf := dot_S32x32_S32x262144_S32x262144_1_0_0_1_n_n_wf
def dot_S2x32_S32x262144_S2x262144_1_0_0_1_n_n : DotDims S2x32 S32x262144 S2x262144 where
  lhsContracting := [1]
  rhsContracting := [0]
  lhsNonContracting := [0]
  rhsNonContracting := [1]
  lhsBatch := []
  rhsBatch := []
  wf := dot_S2x32_S32x262144_S2x262144_1_0_0_1_n_n_wf

abbrev win0_0 : Pipeline.Window sig grid0 :=
  Pipeline.Window.ofSpec (Memref.whole main_v0) S4x262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x262144.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2097152x4 : Shape := ⟨2, ![2097152, 4]⟩
abbrev S80x128 : Shape := ⟨2, ![80, 128]⟩
abbrev S2097152x2 : Shape := ⟨2, ![2097152, 2]⟩
abbrev S512x4 : Shape := ⟨2, ![512, 4]⟩
abbrev S512x2 : Shape := ⟨2, ![512, 2]⟩
abbrev S4x128 : Shape := ⟨2, ![4, 128]⟩
abbrev S1x128 : Shape := ⟨2, ![1, 128]⟩
abbrev S32x128 : Shape := ⟨2, ![32, 128]⟩
abbrev S512x128 : Shape := ⟨2, ![512, 128]⟩
abbrev S512x32 : Shape := ⟨2, ![512, 32]⟩

abbrev nBuf : Space → Nat
  | .hbm => 3
  | .vmem => 5
  | .smem => 0
  | _ => 0

abbrev bufTy : (tb : Table) → Fin (tcTables nBuf tb) → BufTy
  | .hbm, ⟨0, _⟩ => ⟨S2097152x4, .f32⟩
  | .hbm, ⟨1, _⟩ => ⟨S80x128, .f32⟩
  | .hbm, ⟨2, _⟩ => ⟨S2097152x2, .f32⟩
  | .local _ .vmem, ⟨0, _⟩ => ⟨S512x4, .f32⟩
  | .local _ .vmem, ⟨1, _⟩ => ⟨S512x4, .f32⟩
  | .local _ .vmem, ⟨2, _⟩ => ⟨S80x128, .f32⟩
  | .local _ .vmem, ⟨3, _⟩ => ⟨S512x2, .f32⟩
  | .local _ .vmem, ⟨4, _⟩ => ⟨S512x2, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4096], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x4_S512x4_0_0 : ∀ a, (![0, 0] : Fin 2 → Nat) a + S512x4.size a ≤ S512x4.size a
  h_S512x4 : 0 < S512x4.numel
  inb_S80x128_S4x128_0_0 : ∀ a, (![0, 0] : Fin 2 → Nat) a + S4x128.size a ≤ S80x128.size a
  h_S4x128 : 0 < S4x128.numel
  inb_S80x128_S1x128_8_0 : ∀ a, (![8, 0] : Fin 2 → Nat) a + S1x128.size a ≤ S80x128.size a
  h_S1x128 : 0 < S1x128.numel
  inb_S80x128_S1x128_9_0 : ∀ a, (![9, 0] : Fin 2 → Nat) a + S1x128.size a ≤ S80x128.size a
  inb_S80x128_S1x128_10_0 : ∀ a, (![10, 0] : Fin 2 → Nat) a + S1x128.size a ≤ S80x128.size a
  inb_S80x128_S32x128_16_0 : ∀ a, (![16, 0] : Fin 2 → Nat) a + S32x128.size a ≤ S80x128.size a
  h_S32x128 : 0 < S32x128.numel
  inb_S80x128_S32x128_48_0 : ∀ a, (![48, 0] : Fin 2 → Nat) a + S32x128.size a ≤ S80x128.size a
  broadcasts_S1x128_S512x128 : S1x128.Broadcasts S512x128
  slices_S512x128_o0_0_S512x32 : S512x128.Slices ![0, 0] S512x32
  slices_S512x128_o0_0_S512x2 : S512x128.Slices ![0, 0] S512x2
  inb_S512x2_S512x2_0_0 : ∀ a, (![0, 0] : Fin 2 → Nat) a + S512x2.size a ≤ S512x2.size a
  h_S512x2 : 0 < S512x2.numel
  dot_S512x4_S4x128_S512x128_1_0_0_1_n_n_wf : DotDims.WF S512x4 S4x128 S512x128 [1] [0] [0] [1] [] []
  dot_S512x32_S32x128_S512x128_1_0_0_1_n_n_wf : DotDims.WF S512x32 S32x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4.size a ≤ S2097152x4.size a
  hwx0_0 : ∀ i : grid0.Coords, EltTy.bits .f32 = 32 ∨ (Rect.block (s := S2097152x4) S512x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x128.size a ≤ S80x128.size a
  hwx0_1 : ∀ i : grid0.Coords, EltTy.bits .f32 = 32 ∨ (Rect.block (s := S80x128) S80x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2.size a ≤ S2097152x2.size a
  hwx0_2 : ∀ i : grid0.Coords, EltTy.bits .f32 = 32 ∨ (Rect.block (s := S2097152x2) S512x2.size (cc0_transform_2 i) (hinb0_2 i)).WholeWords (EltTy.packing .f32)

variable [Facts₀]

def dot_S512x4_S4x128_S512x128_1_0_0_1_n_n : DotDims S512x4 S4x128 S512x128 where
  lhsContracting := [1]
  rhsContracting := [0]
  lhsNonContracting := [0]
  rhsNonContracting := [1]
  lhsBatch := []
  rhsBatch := []
  wf := dot_S512x4_S4x128_S512x128_1_0_0_1_n_n_wf
def dot_S512x32_S32x128_S512x128_1_0_0_1_n_n : DotDims S512x32 S32x128 S512x128 where
  lhsContracting := [1]
  rhsContracting := [0]
  lhsNonContracting := [0]
  rhsNonContracting := [1]
  lhsBatch := []
  rhsBatch := []
  wf := dot_S512x32_S32x128_S512x128_1_0_0_1_n_n_wf

abbrev win0_0 : Pipeline.Window sig grid0 :=
  Pipeline.Window.ofSpec (Memref.whole main_arg0) S512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S80x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.LibPlainMatmul.lean ====
/-
  A plain matrix product `M × K` by `K × N` (the left operand contracted on its last axis, the right on its first, no
  batch axis) accumulated into the zero splat, read at coordinates at the ideal values: entry (p, q) of the product is
  `∑ k, lhs (p, k) · rhs (k, q)` over the `K` positions of the contracted axis, a sum indexed by `Fin K`. Nothing of
  real arithmetic is used beyond `0 + x = x`, so it holds at the infinities too.
-/
import Idealize.ShloMosaic.Lib.ValueIdx
import Idealize.ShloMosaic.PureOps.Ideal.Laws

namespace Cert.PlainMatmul

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- The left operand is read at (row of the result, contraction position). -/
theorem lhsIdx_plain (M K N : ℕ) (p : Fin M) (q : Fin N) (k : Fin K) :
    (DotDims.plain M K N).lhsIdx (ix2 p q) ((contrFin M K N).symm k) = ix2 p k := by
  funext a
  apply Fin.ext
  match a with
  | ⟨0, _⟩ => rfl
  | ⟨1, _⟩ => exact contrEquiv1_symm_val (DotDims.plain M K N) K rfl rfl k

/-- The right operand is read at (contraction position, column of the result). -/
theorem rhsIdx_plain (M K N : ℕ) (p : Fin M) (q : Fin N) (k : Fin K) :
    (DotDims.plain M K N).rhsIdx (ix2 p q) ((contrFin M K N).symm k) = ix2 k q := by
  funext a
  apply Fin.ext
  match a with
  | ⟨0, _⟩ => exact contrEquiv1_symm_val (DotDims.plain M K N) K rfl rfl k
  | ⟨1, _⟩ => rfl

/-- Entry (p, q) of a plain product into the zero splat is the sum over the contracted axis of the operands' products. -/
theorem matmul_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrFin M K N).symm]
  exact Finset.sum_congr rfl fun k _ => by rw [lhsIdx_plain, rhsIdx_plain]

end Cert.PlainMatmul
-- ==== Proof.Mlp.lean ====
/-
  The function both programs compute, on the extended reals: a three-layer perceptron 4 → 32 → 32 → 2 with the positive
  part after the first two layers, applied to each of the 2097152 rows of `x`, its weights and biases read out of one
  80 × 128 parameter array `s`:
    first-layer weights   rows 0 … 3,   lanes 0 … 31     first-layer bias   row 8,  lanes 0 … 31
    second-layer weights  rows 16 … 47, lanes 0 … 31     second-layer bias  row 9,  lanes 0 … 31
    third-layer weights   rows 48 … 79, lanes 0 … 1      third-layer bias   row 10, lanes 0 … 1
  so that
    h₁ (n, i) = max (∑ k < 4,  x (n, k) · s (k, i)       + s (8, i)) 0
    h₂ (n, j) = max (∑ i < 32, h₁ (n, i) · s (16 + i, j) + s (9, j)) 0
    q  (n, a) =      ∑ j < 32, h₂ (n, j) · s (48 + j, a) + s (10, a).
  One row's value is stated over abstract weights (`mlpAt`), in the arrangement that multiplies the activation by
  the weight; the arrangement that multiplies the weight by the activation (`mlpAtT`: the product computed on the
  transposed arrays) is the same extended real, by commutativity of the product alone — no distributivity and no
  cancellation, so nothing is asked of the inputs' finiteness.
-/
import Idealize.ShloMosaic.Lib.ValueIdx
import Idealize.ShloMosaic.PureOps.Ideal

noncomputable section

namespace Cert.Mlp

open Idealize.ShloMosaic Idealize.ShloMosaic.ValueIdx

/-- One row through the three layers, activation times weight. -/
def mlpAt (xr : Fin 4 → EReal) (w1 : Fin 4 → Fin 32 → EReal) (b1 : Fin 32 → EReal)
    (w2 : Fin 32 → Fin 32 → EReal) (b2 : Fin 32 → EReal) (w3 : Fin 32 → EReal) (b3 : EReal) : EReal :=
  (∑ j : Fin 32, max ((∑ i : Fin 32, max ((∑ k : Fin 4, xr k * w1 k i) + b1 i) 0 * w2 i j) + b2 j) 0 * w3 j) + b3

/-- The same with every product commuted, weight times activation. -/
def mlpAtT (xr : Fin 4 → EReal) (w1 : Fin 4 → Fin 32 → EReal) (b1 : Fin 32 → EReal)
    (w2 : Fin 32 → Fin 32 → EReal) (b2 : Fin 32 → EReal) (w3 : Fin 32 → EReal) (b3 : EReal) : EReal :=
  (∑ j : Fin 32, w3 j * max ((∑ i : Fin 32, w2 i j * max ((∑ k : Fin 4, w1 k i * xr k) + b1 i) 0) + b2 j) 0) + b3

/-- The two arrangements are one extended real: the product commutes. -/
theorem mlpAtT_eq (xr : Fin 4 → EReal) (w1 : Fin 4 → Fin 32 → EReal) (b1 : Fin 32 → EReal)
    (w2 : Fin 32 → Fin 32 → EReal) (b2 : Fin 32 → EReal) (w3 : Fin 32 → EReal) (b3 : EReal) :
    mlpAtT xr w1 b1 w2 b2 w3 b3 = mlpAt xr w1 b1 w2 b2 w3 b3 := by
  unfold mlpAtT mlpAt
  refine congrArg (· + b3) (Finset.sum_congr rfl fun j _ => ?_)
  rw [mul_comm]
  refine congrArg (fun v => max (v + b2 j) 0 * w3 j) (Finset.sum_congr rfl fun i _ => ?_)
  rw [mul_comm]
  refine congrArg (fun v => max (v + b1 i) 0 * w2 i j) (Finset.sum_congr rfl fun k _ => ?_)
  exact mul_comm _ _

/-- The argument `x`, the parameter array and the result, as shapes. -/
abbrev XS : Shape := ⟨2, ![2097152, 4]⟩
abbrev PS : Shape := ⟨2, ![80, 128]⟩
abbrev QS : Shape := ⟨2, ![2097152, 2]⟩

/-- Entry (n, a) of the result: row `n` of `x` through the layers read out of `s`. -/
def mlpRow (x : XS.Idx → EReal) (s : PS.Idx → EReal) (n : Fin 2097152) (a : Fin 2) : EReal :=
  mlpAt (fun k => x (ix2 n k))
    (fun k i => s (ix2 (⟨k.val, by omega⟩ : Fin 80) (⟨i.val, by omega⟩ : Fin 128)))
    (fun i => s (ix2 (⟨8, by omega⟩ : Fin 80) (⟨i.val, by omega⟩ : Fin 128)))
    (fun i j => s (ix2 (⟨16 + i.val, by omega⟩ : Fin 80) (⟨j.val, by omega⟩ : Fin 128)))
    (fun j => s (ix2 (⟨9, by omega⟩ : Fin 80) (⟨j.val, by omega⟩ : Fin 128)))
    (fun j => s (ix2 (⟨48 + j.val, by omega⟩ : Fin 80) (⟨a.val, by omega⟩ : Fin 128)))
    (s (ix2 (⟨10, by omega⟩ : Fin 80) (⟨a.val, by omega⟩ : Fin 128)))

/-- The result array, index by index. -/
def mlp (x : XS.Idx → EReal) (s : PS.Idx → EReal) : QS.Idx → EReal := fun i => mlpRow x s (i 0) (i 1)

end Cert.Mlp

end
-- ==== Proof.RefPayload.lean ====
/-
  What the reference's body stores, read at one entry. The body takes a 512-row block of `x` and the whole parameter
  array; it multiplies the block by rows 0 … 3 of the parameters over all 128 lanes, adds row 8, takes the positive part,
  keeps lanes 0 … 31, multiplies by rows 16 … 47, adds row 9, takes the positive part, keeps lanes 0 … 31, multiplies by
  rows 48 … 79, adds row 10 and keeps lanes 0 and 1. Entry (p, a) of what it stores is therefore row `p` of the block
  through the three layers, each product a sum over the contracted axis and each kept lane the lane itself.
-/
import proofs.«140687_g2000404131905898_pallasbulk_1004_22_alg».proof.Proof.Gen.ReferenceIdeal.Skeleton
import proofs.«140687_g2000404131905898_pallasbulk_1004_22_alg».proof.Proof.LibPlainMatmul
import proofs.«140687_g2000404131905898_pallasbulk_1004_22_alg».proof.Proof.Mlp
import Idealize.ShloMosaic.Lib.ValueLayout

noncomputable section

namespace Cert.ReferenceIdeal.Payload

open Idealize.ShloMosaic Idealize.ShloMosaic.ValueIdx Cert.ReferenceIdeal Cert.ReferenceIdeal.Gen Cert.Mlp

/-- The two products' dimension numbers are the plain ones. -/
theorem dot4_eq : dot_S512x4_S4x128_S512x128_1_0_0_1_n_n = DotDims.plain 512 4 128 := rfl
theorem dot32_eq : dot_S512x32_S32x128_S512x128_1_0_0_1_n_n = DotDims.plain 512 32 128 := rfl

/-- A product with a row of biases laid under every row, at (p, l). -/
theorem affine4 (A : FVec Ideal S512x4 .f32) (W : FVec Ideal S4x128 .f32) (B : FVec Ideal S1x128 .f32) (p : Fin 512) (l : Fin 128) :
    addf (matmul dot_S512x4_S4x128_S512x128_1_0_0_1_n_n none A W (constant S512x128 .f32 0x00000000#32))
        (broadcastTo S512x128 B Facts₀.broadcasts_S1x128_S512x128) (ix2 p l)
      = (∑ k : Fin 4, A (ix2 p k) * W (ix2 k l)) + B (ix2 (0 : Fin 1) l) := by
  rw [addf_apply, broadcastTo_1b_ab_apply]
  simp only [matmul]
  rw [dot4_eq, Cert.PlainMatmul.matmul_zero_apply]

theorem affine32 (A : FVec Ideal S512x32 .f32) (W : FVec Ideal S32x128 .f32) (B : FVec Ideal S1x128 .f32) (p : Fin 512) (l : Fin 128) :
    addf (matmul dot_S512x32_S32x128_S512x128_1_0_0_1_n_n none A W (constant S512x128 .f32 0x00000000#32))
        (broadcastTo S512x128 B Facts₀.broadcasts_S1x128_S512x128) (ix2 p l)
      = (∑ k : Fin 32, A (ix2 p k) * W (ix2 k l)) + B (ix2 (0 : Fin 1) l) := by
  rw [addf_apply, broadcastTo_1b_ab_apply]
  simp only [matmul]
  rw [dot32_eq, Cert.PlainMatmul.matmul_zero_apply]

/-- The positive part against the zero splat, at an entry. -/
theorem relu_apply (H : FVec Ideal S512x128 .f32) (i : S512x128.Idx) :
    maximumf H (broadcast S512x128 (Scalar.ofBits .f32 0x00000000#32)) i = max (H i) 0 := by
  rw [maximumf_apply, broadcast_apply]
  show max (H i) (Ideal.ofBits .f32 0x00000000#32) = _
  rw [Ideal.ofBits_zero_f32]

/-- Lanes 0 … 31 kept: entry (p, k) is entry (p, k) of the 128-lane value. -/
theorem keep32 (H : FVec Ideal S512x128 .f32) (p : Fin 512) (k : Fin 32) :
    extractStridedSlice S512x32 ![0, 0] H Facts₀.slices_S512x128_o0_0_S512x32 (ix2 p k) = H (ix2 p (⟨k.val, by omega⟩ : Fin 128)) :=
  slice2_axis1_apply 0 H _ p k _ (by simp)

/-- Lanes 0 and 1 kept. -/
theorem keep2 (H : FVec Ideal S512x128 .f32) (p : Fin 512) (a : Fin 2) :
    extractStridedSlice S512x2 ![0, 0] H Facts₀.slices_S512x128_o0_0_S512x2 (ix2 p a) = H (ix2 p (⟨a.val, by omega⟩ : Fin 128)) :=
  slice2_axis1_apply 0 H _ p a _ (by simp)

/-- Entry (p, a) of what the body stores: row `p` of the block of `x` through the three layers, the weights and biases
    the rows the body loaded. -/
theorem pay_apply (v0 : Vec Ideal S512x4 .f32) (v1 : Vec Ideal S4x128 .f32) (v2 v3 v4 : Vec Ideal S1x128 .f32)
    (v5 v6 : Vec Ideal S32x128 .f32) (p : Fin 512) (a : Fin 2) :
    k0_pay1 v0 v1 v2 v3 v4 v5 v6 (ix2 p a)
      = mlpAt (fun k => v0 (ix2 p k))
          (fun k i => v1 (ix2 k (⟨i.val, by omega⟩ : Fin 128)))
          (fun i => v2 (ix2 (0 : Fin 1) (⟨i.val, by omega⟩ : Fin 128)))
          (fun i j => v5 (ix2 i (⟨j.val, by omega⟩ : Fin 128)))
          (fun j => v3 (ix2 (0 : Fin 1) (⟨j.val, by omega⟩ : Fin 128)))
          (fun j => v6 (ix2 j (⟨a.val, by omega⟩ : Fin 128)))
          (v4 (ix2 (0 : Fin 1) (⟨a.val, by omega⟩ : Fin 128))) := by
  unfold k0_pay1 mlpAt
  dsimp only
  rw [keep2, affine32]
  simp only [keep32, relu_apply, affine32, affine4]

end Cert.ReferenceIdeal.Payload

end
-- ==== Proof.RefValue.lean ====
/-
  The reference's result array after its run. The grid has 4096 points; point `t` takes rows 512·t … 512·t + 511 of
  `x` and the whole parameter array and writes rows 512·t … 512·t + 511 of the result. Each row of the block goes
  through the three layers by itself, so what point `t` writes back is block `t` of ONE array, `mlp x s`; the 4096 blocks
  tile the result's rows, so the array ends holding `mlp x s`.
-/
import proofs.«140687_g2000404131905898_pallasbulk_1004_22_alg».proof.Proof.Gen.ReferenceIdeal.Value
import proofs.«140687_g2000404131905898_pallasbulk_1004_22_alg».proof.Proof.RefPayload

noncomputable section

namespace Cert.ReferenceIdeal.RefValue

open Cert.ReferenceIdeal Cert.ReferenceIdeal.Gen Cert.ReferenceIdeal.Value Cert.Mlp
open Idealize.ShloMosaic Idealize.ShloMosaic.ValueIdx Idealize.ShloMosaic.TcCoe Idealize.SL.Sem
open Idealize.ShloMosaic.Pipeline (Dat)

theorem hz : (![0, 0] : Fin 2 → Nat) = fun _ => 0 := funext fun a => by fin_cases a <;> rfl

/-- What the body leaves from a block of `x` that holds rows r₀ … r₀ + 511 of `X` and a block of the parameters that
    holds `S`: rows r₀ … r₀ + 511 of `mlp X S`. -/
theorem block_eq (B0 : Vec Ideal S512x4 .f32) (B1 : Vec Ideal S80x128 .f32) (X : XS.Idx → EReal) (S : PS.Idx → EReal) (r₀ : ℕ)
    (hB0 : ∀ (y : S512x4.Idx) (i : XS.Idx), (i 0).val = r₀ + (y 0).val → (i 1).val = (y 1).val → B0 y = X i)
    (hB1 : ∀ (y : S80x128.Idx) (i : PS.Idx), (i 0).val = (y 0).val → (i 1).val = (y 1).val → B1 y = S i)
    (j : S512x2.Idx) (i : QS.Idx) (hi0 : (i 0).val = r₀ + (j 0).val) (hi1 : (i 1).val = (j 1).val) :
    out0_2 B0 B1 j = mlp X S i := by
  unfold out0_2
  rw [View.canon_unit_zero hz]
  obtain ⟨p, a, rfl⟩ : ∃ (p : Fin 512) (a : Fin 2), j = ix2 p a := ⟨j 0, j 1, eq_ix2 j⟩
  have hi0' : (i 0).val = r₀ + p.val := hi0
  have hi1' : (i 1).val = a.val := hi1
  rw [Payload.pay_apply]
  unfold mlp mlpRow
  congr 1
  · funext k
    exact hB0 _ _ (by show (i 0).val = r₀ + (0 + 1 * p.val); omega) (by show k.val = 0 + 1 * k.val; omega)
  · funext k l
    exact hB1 _ _ (by show k.val = 0 + 1 * k.val; omega) (by show l.val = 0 + 1 * l.val; omega)
  · funext l
    exact hB1 _ _ (by show 8 = 8 + 1 * 0; omega) (by show l.val = 0 + 1 * l.val; omega)
  · funext k l
    exact hB1 _ _ (by show 16 + k.val = 16 + 1 * k.val; omega) (by show l.val = 0 + 1 * l.val; omega)
  · funext l
    exact hB1 _ _ (by show 9 = 9 + 1 * 0; omega) (by show l.val = 0 + 1 * l.val; omega)
  · funext l
    exact hB1 _ _ (by show 48 + l.val = 48 + 1 * l.val; omega) (by show (i 1).val = 0 + 1 * a.val; omega)
  · exact hB1 _ _ (by show 10 = 10 + 1 * 0; omega) (by show (i 1).val = 0 + 1 * a.val; omega)

variable (m : (ℓ : Loc nD τ sig) → Buf (Elt Ideal) ℓ) (ρ : Dev nD → PrngReg)

/-- The printed index maps over the grid: the blocks of `x` and of the result move down the rows with the point, the
    parameter array is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array the result ends at. -/
abbrev result (c : Dev nD) : Buf (Elt Ideal) ((c : Thread nD τ).loc main_v0) :=
  mlp (m ((c : Thread nD τ).loc main_arg0)) (m ((c : Thread nD τ).loc main_arg1))

/-- What point `t` writes back is block `t` of that array. -/
theorem flushed_eq (c : Dev nD) (t : Fin cfg0.N) :
    (dats m 0 c).flushed 2 t = ((cfg0.win 2).blk t).view.read (Elt Ideal) (result m c) := by
  rw [flushed2]
  obtain ⟨e00, e01, e10, e11, e20, e21⟩ := idx_facts t
  funext j
  refine block_eq (iblk m c 0 t) (iblk m c 1 t) (m ((c : Thread nD τ).loc main_arg0)) (m ((c : Thread nD τ).loc main_arg1))
    (t.val * 512) (fun y i h0 h1 => ?_) (fun y i h0 h1 => ?_) j (((cfg0.win 2).blk t).view.emb j) ?_ ?_
  · show V m c main_arg0 (((cfg0.win 0).blk t).view.emb y) = V m c main_arg0 i
    refine congrArg _ (funext fun a => Fin.ext ?_)
    match a with
    | ⟨0, _⟩ => show win0_0.index t (0 : Fin 2) * 512 + 1 * (y 0).val = (i 0).val; omega
    | ⟨1, _⟩ => show win0_0.index t (1 : Fin 2) * 4 + 1 * (y 1).val = (i 1).val; omega
  · show V m c main_arg1 (((cfg0.win 1).blk t).view.emb y) = V m c main_arg1 i
    refine congrArg _ (funext fun a => Fin.ext ?_)
    match a with
    | ⟨0, _⟩ => show win0_1.index t (0 : Fin 2) * 80 + 1 * (y 0).val = (i 0).val; omega
    | ⟨1, _⟩ => show win0_1.index t (1 : Fin 2) * 128 + 1 * (y 1).val = (i 1).val; omega
  · show win0_2.index t (0 : Fin 2) * 512 + 1 * (j 0).val = t.val * 512 + (j 0).val; omega
  · show win0_2.index t (1 : Fin 2) * 2 + 1 * (j 1).val = (j 1).val; omega

/-- An index of the result is in point `t`'s block iff each coordinate is in the block's range on its axis. -/
theorem mem_blk (t : Fin cfg0.N) (i : S2097152x2.Idx) :
    i ∈ ((cfg0.win 2).blk t).view.set ↔ ∀ a : Fin 2, win0_2.index t a * S512x2.size a ≤ (i a).val ∧ (i a).val < win0_2.index t a * S512x2.size a + S512x2.size a := by
  show i ∈ ((View.whole main_v0).slice (win0_2.rect t)).set ↔ _
  rw [View.set_slice_whole, Rect.mem_set_unit]
  exact Iff.rfl

/-- Every row of the result is in the block of the point its row number divided by 512 names. -/
theorem cover (i : S2097152x2.Idx) : ∃ t : Fin cfg0.N, (cfg0.win 2).flush t = true ∧ i ∈ ((cfg0.win 2).blk t).view.set := by
  have hi0 : (i 0).val < 2097152 := (i 0).isLt
  have hi1 : (i 1).val < 2 := (i 1).isLt
  have hN : cfg0.N = 4096 := N_0
  refine ⟨⟨(i 0).val / 512, by omega⟩, flush0_2 _, ?_⟩
  rw [mem_blk]
  obtain ⟨-, -, -, -, e20, e21⟩ := idx_facts ⟨(i 0).val / 512, by omega⟩
  intro a
  match a with
  | ⟨0, _⟩ =>
    show win0_2.index _ (0 : Fin 2) * 512 ≤ (i 0).val ∧ (i 0).val < win0_2.index _ (0 : Fin 2) * 512 + 512
    rw [e20]; show (i 0).val / 512 * 512 ≤ (i 0).val ∧ (i 0).val < (i 0).val / 512 * 512 + 512; omega
  | ⟨1, _⟩ =>
    show win0_2.index _ (1 : Fin 2) * 2 ≤ (i 1).val ∧ (i 1).val < win0_2.index _ (1 : Fin 2) * 2 + 2
    rw [e21]; omega

/-- So the result array ends holding `mlp x s`. -/
theorem final (c : Dev nD) : (dats m 0 c).arrAt 2 cfg0.N = result m c :=
  (dats m 0 c).arrAt_eq_of_cover 2 (result m c) (fun t _ => flushed_eq m c t) cover

/-- The run, read: the result at `mlp` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.ReferenceIdeal.RefValue

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KerPayload.lean ====
/-
  What the kernel's body stores, read at one entry. The body works on the transposed arrays: it takes a block of 262144
  columns of `xᵀ` (4 rows) and the whole transposed parameter array (128 rows, 80 columns), and computes
  `W₃ᵀ · max (W₂ᵀ · max (W₁ᵀ · xᵀ + b₁) 0 + b₂) 0 + b₃` with the weights as the LEFT factors and the biases as columns
  laid along the 262144 columns. At the ideal values a change of float format is the identity and a shape cast to the
  same shape reads the same entries, so entry (a, n) of what it stores is column `n` of the block through the three
  layers in the arrangement weight times activation.
-/
import proofs.«140687_g2000404131905898_pallasbulk_1004_22_alg».proof.Proof.Gen.KernelIdeal.Skeleton
import proofs.«140687_g2000404131905898_pallasbulk_1004_22_alg».proof.Proof.LibPlainMatmul
import proofs.«140687_g2000404131905898_pallasbulk_1004_22_alg».proof.Proof.LibKeepdims
import proofs.«140687_g2000404131905898_pallasbulk_1004_22_alg».proof.Proof.Mlp
import Idealize.ShloMosaic.Lib.ValueLayout

noncomputable section

namespace Cert.KernelIdeal.Payload

open Idealize.ShloMosaic Idealize.ShloMosaic.ValueIdx Cert.KernelIdeal Cert.KernelIdeal.Gen Cert.Mlp

/-- The three products' dimension numbers are the plain ones. -/
theorem dotA_eq : dot_S32x4_S4x262144_S32x262144_1_0_0_1_n_n = DotDims.plain 32 4 262144 := rfl
theorem dotB_eq : dot_S32x32_S32x262144_S32x262144_1_0_0_1_n_n = DotDims.plain 32 32 262144 := rfl
theorem dotC_eq : dot_S2x32_S32x262144_S2x262144_1_0_0_1_n_n = DotDims.plain 2 32 262144 := rfl

/-- The sixteen-bit zero word denotes zero. -/
theorem zero_bf16 : Ideal.ofBits .bf16 0x0000#16 = 0 := IdealRules.sign_bit.ideal_zero .bf16

/-- The positive part against the sixteen-bit zero splat, at an entry. -/
theorem relu_apply (H : FVec Ideal S32x262144 .bf16) (i : S32x262144.Idx) :
    maximumf H (broadcast S32x262144 (Scalar.ofBits .bf16 0x0000#16)) i = max (H i) 0 := by
  rw [maximumf_apply, broadcast_apply]
  show max (H i) (Ideal.ofBits .bf16 0x0000#16) = _
  rw [zero_bf16]

/-- Entry (a, n) of what the body stores: column `n` of the block of `xᵀ` through the three layers, weight times
    activation, the weights and biases the pieces of the transposed parameter array the body loaded. -/
theorem pay_apply (v0 : Vec Ideal S4x262144 .f32) (v3 : Vec Ideal S32x4 .f32) (v6 : Vec Ideal S32x32 .f32)
    (v9 : Vec Ideal S2x32 .f32) (v12 v15 : Vec Ideal S32x1 .f32) (v18 : Vec Ideal S2x1 .f32) (a : Fin 2) (n : Fin 262144) :
    k0_pay1 v0 v3 v6 v9 v12 v15 v18 (ix2 a n)
      = mlpAtT (fun k => v0 (ix2 k n))
          (fun k i => v3 (ix2 i k))
          (fun i => v12 (ix2 i (0 : Fin 1)))
          (fun i j => v6 (ix2 j i))
          (fun j => v15 (ix2 j (0 : Fin 1)))
          (fun j => v9 (ix2 a j))
          (v18 (ix2 a (0 : Fin 1))) := by
  unfold k0_pay1 mlpAtT
  dsimp only
  simp only [matmul, shapeCast_self, dotA_eq, dotB_eq, dotC_eq]
  rw [addf_apply, Cert.Keepdims.broadcastTo_a1_ab_apply, Cert.PlainMatmul.matmul_zero_apply]
  simp only [truncf_apply, relu_apply, addf_apply, Cert.Keepdims.broadcastTo_a1_ab_apply,
    Cert.PlainMatmul.matmul_zero_apply]

end Cert.KernelIdeal.Payload

end
-- ==== Proof.KerValue.lean ====
/-
  The kernel's result array after its run. The host first transposes `x` to 4 × 2097152 and the parameter array to
  128 × 80; the region's grid has 8 points, point `t` taking columns 262144·t … 262144·t + 262143 of `xᵀ` and the whole
  transposed parameter array and writing the same columns of a 2 × 2097152 array; the host transposes that array back.
  Each column of a block goes through the three layers by itself, the weights read out of the transposed parameters at
  swapped coordinates, so what point `t` writes back is block `t` of ONE array, the transpose of `mlp x s` (weight times
  activation is activation times weight); the 8 blocks tile the columns; and the transpose back is `mlp x s`.
-/
import proofs.«140687_g2000404131905898_pallasbulk_1004_22_alg».proof.Proof.Gen.KernelIdeal.Frame
import proofs.«140687_g2000404131905898_pallasbulk_1004_22_alg».proof.Proof.KerPayload
import Idealize.ShloMosaic.Lib.Pipeline.Value
import Idealize.ShloMosaic.Lib.StableHlo.Run

noncomputable section

namespace Cert.KernelIdeal.KerValue

open Cert.KernelIdeal Cert.KernelIdeal.Gen Cert.Mlp
open Idealize.ShloMosaic Idealize.ShloMosaic.ValueIdx Idealize.ShloMosaic.TcCoe Idealize.SL.Sem
open Idealize.ShloMosaic.Pipeline (Dat)

theorem hz : (![0, 0] : Fin 2 → Nat) = fun _ => 0 := funext fun a => by fin_cases a <;> rfl

/-- What the body leaves from a block of `xᵀ` that holds columns c₀ … c₀ + 262143 of the transpose of `X` and a block of
    the transposed parameters that holds the transpose of `S`: the same columns of the transpose of `mlp X S`. -/
theorem block_eq (B0 : Vec Ideal S4x262144 .f32) (B1 : Vec Ideal S128x80 .f32) (X : XS.Idx → EReal) (S : PS.Idx → EReal) (c₀ : ℕ)
    (hB0 : ∀ (y : S4x262144.Idx) (i : XS.Idx), (i 0).val = c₀ + (y 1).val → (i 1).val = (y 0).val → B0 y = X i)
    (hB1 : ∀ (y : S128x80.Idx) (i : PS.Idx), (i 0).val = (y 1).val → (i 1).val = (y 0).val → B1 y = S i)
    (j : S2x262144.Idx) (i : QS.Idx) (hi0 : (i 0).val = c₀ + (j 1).val) (hi1 : (i 1).val = (j 0).val) :
    out0_2 B0 B1 j = mlp X S i := by
  unfold out0_2
  rw [View.canon_unit_zero hz]
  obtain ⟨a, n, rfl⟩ : ∃ (a : Fin 2) (n : Fin 262144), j = ix2 a n := ⟨j 0, j 1, eq_ix2 j⟩
  have hi0' : (i 0).val = c₀ + n.val := hi0
  have hi1' : (i 1).val = a.val := hi1
  rw [Payload.pay_apply, mlpAtT_eq]
  unfold mlp mlpRow
  congr 1
  · funext k
    exact hB0 _ _ (by show (i 0).val = c₀ + (0 + 1 * n.val); omega) (by show k.val = 0 + 1 * k.val; omega)
  · funext k l
    exact hB1 _ _ (by show k.val = 0 + 1 * k.val; omega) (by show l.val = 0 + 1 * l.val; omega)
  · funext l
    exact hB1 _ _ (by show 8 = 8 + 1 * 0; omega) (by show l.val = 0 + 1 * l.val; omega)
  · funext k l
    exact hB1 _ _ (by show 16 + k.val = 16 + 1 * k.val; omega) (by show l.val = 0 + 1 * l.val; omega)
  · funext l
    exact hB1 _ _ (by show 9 = 9 + 1 * 0; omega) (by show l.val = 0 + 1 * l.val; omega)
  · funext l
    exact hB1 _ _ (by show 48 + l.val = 48 + 1 * l.val; omega) (by show (i 1).val = 0 + 1 * a.val; omega)
  · exact hB1 _ _ (by show 10 = 10 + 1 * 0; omega) (by show (i 1).val = 0 + 1 * a.val; omega)

variable (m : (ℓ : Loc nD τ sig) → Buf (Elt Ideal) ℓ) (ρ : Dev nD → PrngReg)

/-- The region finds the transpose of `x` in its first operand's array, -/
theorem V_xT (c : Dev nD) : (V m c main_v0 : S4x2097152.Idx → EReal)
    = transpose S4x2097152 [1, 0] (m ((c : Thread nD τ).loc main_arg0)) Facts₀.transposes_S2097152x4_S4x2097152_1_0 := by
  show StableHlo.after hostOps0 (fun b => m (c, b)) (Proc.devRef .tc main_v0) = _
  after_results

/-- and the transpose of the parameter array in its second operand's. -/
theorem V_sT (c : Dev nD) : (V m c main_v1 : S128x80.Idx → EReal)
    = transpose S128x80 [1, 0] (m ((c : Thread nD τ).loc main_arg1)) Facts₀.transposes_S80x128_S128x80_1_0 := by
  show StableHlo.after hostOps0 (fun b => m (c, b)) (Proc.devRef .tc main_v1) = _
  after_results

/-- The printed index maps over the grid: the blocks of `xᵀ` and of the region's output move along the columns with the
    point, the transposed parameter array is one block. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- The array @main ends at, -/
abbrev result (c : Dev nD) : Buf (Elt Ideal) ((c : Thread nD τ).loc main_v3) :=
  mlp (m ((c : Thread nD τ).loc main_arg0)) (m ((c : Thread nD τ).loc main_arg1))

/-- and the array the region ends at: its transpose. -/
abbrev regionOut (c : Dev nD) : Buf (Elt Ideal) ((c : Thread nD τ).loc main_v2) :=
  fun i : S2x2097152.Idx => mlp (m ((c : Thread nD τ).loc main_arg0)) (m ((c : Thread nD τ).loc main_arg1)) (ix2 (i 1) (i 0))

/-- What point `t` writes back is block `t` of the region's array. -/
theorem flushed_eq (c : Dev nD) (t : Fin cfg0.N) :
    (dats m 0 c).flushed 2 t = ((cfg0.win 2).blk t).view.read (Elt Ideal) (regionOut m c) := by
  show (cfg0.win 2).cut (grid0.coords t) ((dats m 0 c).after 2 t) = _
  rw [after0_2]
  obtain ⟨e00, e01, e10, e11, e20, e21⟩ := idx_facts t
  funext j
  refine block_eq (iblk m c 0 t) (iblk m c 1 t) (m ((c : Thread nD τ).loc main_arg0)) (m ((c : Thread nD τ).loc main_arg1))
    (t.val * 262144) (fun y i h0 h1 => ?_) (fun y i h0 h1 => ?_) j
    (ix2 ((((cfg0.win 2).blk t).view.emb j) 1) ((((cfg0.win 2).blk t).view.emb j) 0)) ?_ ?_
  · show V m c main_v0 (((cfg0.win 0).blk t).view.emb y) = _
    rw [V_xT]
    refine transpose_apply _ _ _ _ i fun b => ?_
    match b with
    | ⟨0, _⟩ =>
      show (i 1).val = win0_0.index t (0 : Fin 2) * 4 + 1 * (y 0).val
      rw [e00, Nat.zero_mul, Nat.zero_add, Nat.one_mul]; exact h1
    | ⟨1, _⟩ =>
      show (i 0).val = win0_0.index t (1 : Fin 2) * 262144 + 1 * (y 1).val
      rw [e01, Nat.one_mul]; exact h0
  · show V m c main_v1 (((cfg0.win 1).blk t).view.emb y) = _
    rw [V_sT]
    refine transpose_apply _ _ _ _ i fun b => ?_
    match b with
    | ⟨0, _⟩ =>
      show (i 1).val = win0_1.index t (0 : Fin 2) * 128 + 1 * (y 0).val
      rw [e10, Nat.zero_mul, Nat.zero_add, Nat.one_mul]; exact h1
    | ⟨1, _⟩ =>
      show (i 0).val = win0_1.index t (1 : Fin 2) * 80 + 1 * (y 1).val
      rw [e11, Nat.zero_mul, Nat.zero_add, Nat.one_mul]; exact h0
  · show win0_2.index t (1 : Fin 2) * 262144 + 1 * (j 1).val = t.val * 262144 + (j 1).val
    rw [e21, Nat.one_mul]
  · show win0_2.index t (0 : Fin 2) * 2 + 1 * (j 0).val = (j 0).val
    rw [e20, Nat.zero_mul, Nat.zero_add, Nat.one_mul]

/-- An index of the region's array is in point `t`'s block iff each coordinate is in the block's range on its axis. -/
theorem mem_blk (t : Fin cfg0.N) (i : S2x2097152.Idx) :
    i ∈ ((cfg0.win 2).blk t).view.set ↔ ∀ a : Fin 2, win0_2.index t a * S2x262144.size a ≤ (i a).val ∧ (i a).val < win0_2.index t a * S2x262144.size a + S2x262144.size a := by
  show i ∈ ((View.whole main_v2).slice (win0_2.rect t)).set ↔ _
  rw [View.set_slice_whole, Rect.mem_set_unit]
  exact Iff.rfl

/-- Every column of the region's array is in the block of the point its column number divided by 262144 names. -/
theorem cover (i : S2x2097152.Idx) : ∃ t : Fin cfg0.N, (cfg0.win 2).flush t = true ∧ i ∈ ((cfg0.win 2).blk t).view.set := by
  have hi0 : (i 0).val < 2 := (i 0).isLt
  have hi1 : (i 1).val < 2097152 := (i 1).isLt
  have hN : cfg0.N = 8 := N_0
  refine ⟨⟨(i 1).val / 262144, by omega⟩, flush0_2 _, ?_⟩
  rw [mem_blk]
  obtain ⟨-, -, -, -, e20, e21⟩ := idx_facts ⟨(i 1).val / 262144, by omega⟩
  intro a
  match a with
  | ⟨0, _⟩ =>
    show win0_2.index _ (0 : Fin 2) * 2 ≤ (i 0).val ∧ (i 0).val < win0_2.index _ (0 : Fin 2) * 2 + 2
    rw [e20]; omega
  | ⟨1, _⟩ =>
    show win0_2.index _ (1 : Fin 2) * 262144 ≤ (i 1).val ∧ (i 1).val < win0_2.index _ (1 : Fin 2) * 262144 + 262144
    rw [e21]; show (i 1).val / 262144 * 262144 ≤ (i 1).val ∧ (i 1).val < (i 1).val / 262144 * 262144 + 262144; omega

/-- So the region's array ends holding the transpose of `mlp x s`, -/
theorem final (c : Dev nD) : (dats m 0 c).arrAt 2 cfg0.N = regionOut m c :=
  (dats m 0 c).arrAt_eq_of_cover 2 (regionOut m c) (fun t _ => flushed_eq m c t) cover

/-- and the host's transpose after the region leaves `mlp x s` in the result. -/
theorem tail_eq (c : Dev nD) : Pipeline.afterTail₀ cfgs (dats m) 0 (V0 m) [hostOps1] c main_v3 = result m c := by
  unfold Pipeline.afterTail₀
  show StableHlo.after hostOps1 _ (Proc.devRef .tc main_v3) = _
  after_results
  have e : Pipeline.withArrays spec0 c (V0 m c) (fun w => (dats m 0 c).arrAt w cfg0.N) (Proc.devRef .tc main_v2) = regionOut m c :=
    (Pipeline.withArrays_arr spec0 launch0.win.arr_inj c _ _ 2).trans (final m c)
  refine (congrArg (fun A => transpose S2097152x2 [1, 0] A Facts₀.transposes_S2x2097152_S2097152x2_1_0) e).trans ?_
  funext i
  obtain ⟨n, a, rfl⟩ : ∃ (n : Fin 2097152) (a : Fin 2), i = ix2 n a := ⟨i 0, i 1, eq_ix2 i⟩
  exact transpose_ix2_apply _ _ n a

/-- The run, read: the result at `mlp` of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KerValue

end
-- ==== Proof.lean ====
/-
  The kernel and the reference compute one function of their arguments at the ideal values: a three-layer perceptron
  4 → 32 → 32 → 2 with the positive part after the first two layers, applied to every row of `x`, its weights and biases
  rows of the parameter array (Proof/Mlp.lean, `mlp`). The reference does it row block by row block, activation times
  weight over all 128 lanes, keeping the lanes that carry weights (Proof/RefPayload.lean, Proof/RefValue.lean); the kernel
  does it on the transposed arrays, column block by column block, weight times activation, between two host transposes of
  the argument arrays and one of the result (Proof/KerPayload.lean, Proof/KerValue.lean). The two arrangements differ by
  the order of the factors in each product and by where an entry sits, and the product of extended reals commutes, so
  the two result arrays are equal entry by entry whatever the inputs hold; the precondition is never opened. The three
  frames are the generated ones, and the idealization rewrote nothing, so `preserves` has nothing to say.
-/
import proofs.«140687_g2000404131905898_pallasbulk_1004_22_alg».proof.Defs
import proofs.«140687_g2000404131905898_pallasbulk_1004_22_alg».proof.Proof.Gen.Kernel
import proofs.«140687_g2000404131905898_pallasbulk_1004_22_alg».proof.Proof.Gen.Kernel.Skeleton
import proofs.«140687_g2000404131905898_pallasbulk_1004_22_alg».proof.Proof.Gen.Kernel.Launch
import proofs.«140687_g2000404131905898_pallasbulk_1004_22_alg».proof.Proof.Gen.Kernel.Points
import proofs.«140687_g2000404131905898_pallasbulk_1004_22_alg».proof.Proof.Gen.Kernel.Frame
import proofs.«140687_g2000404131905898_pallasbulk_1004_22_alg».proof.Proof.Gen.KernelIdeal
import proofs.«140687_g2000404131905898_pallasbulk_1004_22_alg».proof.Proof.Gen.KernelIdeal.Skeleton
import proofs.«140687_g2000404131905898_pallasbulk_1004_22_alg».proof.Proof.Gen.KernelIdeal.Launch
import proofs.«140687_g2000404131905898_pallasbulk_1004_22_alg».proof.Proof.Gen.KernelIdeal.Points
import proofs.«140687_g2000404131905898_pallasbulk_1004_22_alg».proof.Proof.Gen.KernelIdeal.Frame
import proofs.«140687_g2000404131905898_pallasbulk_1004_22_alg».proof.Proof.Gen.ReferenceIdeal
import proofs.«140687_g2000404131905898_pallasbulk_1004_22_alg».proof.Proof.Gen.ReferenceIdeal.Skeleton
import proofs.«140687_g2000404131905898_pallasbulk_1004_22_alg».proof.Proof.Gen.ReferenceIdeal.Launch
import proofs.«140687_g2000404131905898_pallasbulk_1004_22_alg».proof.Proof.Gen.ReferenceIdeal.Points
import proofs.«140687_g2000404131905898_pallasbulk_1004_22_alg».proof.Proof.Gen.ReferenceIdeal.Frame
import proofs.«140687_g2000404131905898_pallasbulk_1004_22_alg».proof.Proof.Gen.ReferenceIdeal.Value
import proofs.«140687_g2000404131905898_pallasbulk_1004_22_alg».proof.Proof.Gen.Pre_finite_inputs
import proofs.«140687_g2000404131905898_pallasbulk_1004_22_alg».proof.Proof.RefValue
import proofs.«140687_g2000404131905898_pallasbulk_1004_22_alg».proof.Proof.KerValue
import Idealize.ShloMosaic.Adequacy
import Idealize.ShloMosaic.Init

noncomputable section

namespace Cert.Proof

open Idealize.ShloMosaic Idealize.SL.Sem

/-- Each program runs to its end with its argument arrays unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- From memories that agree on `x` and on the parameter array both idealized programs end with `mlp x s` in their
    result arrays. -/
theorem algebraic : Cert.algebraic_KernelIdeal_ReferenceIdeal := by
  intro m ρ m' ρ' _ hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  show Cert.Mlp.mlp _ _ = Cert.Mlp.mlp _ _
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
